-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x256 : Shape := ⟨2, ![524288, 256]⟩
abbrev S256 : Shape := ⟨1, ![256]⟩
abbrev S_ : Shape := ⟨0, ![]⟩

class Facts : Prop where
  bcast_S_S524288x256 : S_.BroadcastsInDim S524288x256 (![] : Fin 0 → Fin S524288x256.rank)
  reducesTo_S524288x256_S_d0_1 : S524288x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S524288x256 .f32) (main_arg1 : FVec F S524288x256 .f32) (main_arg2 : FVec F S256 .f32) : IVec S_ 1 :=
  let main_v0 : FVec F S524288x256 .f32 := Host.absf main_arg0
  let main_cst : FVec F S_ .f32 := constant S_ .f32 0x7F800000#32
  let main_v1 : FVec F S524288x256 .f32 := broadcastInDim S524288x256 ![] bcast_S_S524288x256 main_cst
  let main_v2 : IVec S524288x256 1 := cmpf .olt main_v0 main_v1
  let main_c : IVec S_ 1 := constantI S_ 1 1#1
  let main_v3 : IVec S_ 1 := (fun x v => Host.reduce IntOp.andi x v reducesTo_S524288x256_S_d0_1 h_S_) main_v2 main_c
  let main_v4 : FVec F S524288x256 .f32 := Host.absf main_arg1
  let main_cst_0 : FVec F S_ .f32 := constant S_ .f32 0x7F800000#32
  let main_v5 : FVec F S524288x256 .f32 := broadcastInDim S524288x256 ![] bcast_S_S524288x256 main_cst_0
  let main_v6 : IVec S524288x256 1 := cmpf .olt main_v4 main_v5
  let main_c_1 : IVec S_ 1 := constantI S_ 1 1#1
  let main_v7 : IVec S_ 1 := (fun x v => Host.reduce IntOp.andi x v reducesTo_S524288x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S524288x256 : Shape := ⟨2, ![524288, 256]⟩
abbrev S256 : Shape := ⟨1, ![256]⟩
abbrev S1x256 : Shape := ⟨2, ![1, 256]⟩
abbrev S2x1x1 : Shape := ⟨3, ![2, 1, 1]⟩
abbrev S4096x256 : Shape := ⟨2, ![4096, 256]⟩
abbrev S1x1x1 : Shape := ⟨3, ![1, 1, 1]⟩
abbrev S1x1 : Shape := ⟨2, ![1, 1]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 7
  | .vmem => 8
  | .smem => 0
  | _ => 0

abbrev bufTy : (tb : Table) → Fin (tcTables nBuf tb) → BufTy
  | .hbm, ⟨0, _⟩ => ⟨S524288x256, .f32⟩
  | .hbm, ⟨1, _⟩ => ⟨S524288x256, .f32⟩
  | .hbm, ⟨2, _⟩ => ⟨S256, .f32⟩
  | .hbm, ⟨3, _⟩ => ⟨S1x256, .f32⟩
  | .hbm, ⟨4, _⟩ => ⟨S2x1x1, .f32⟩
  | .hbm, ⟨5, _⟩ => ⟨S_, .f32⟩
  | .hbm, ⟨6, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S1x256, .f32⟩
  | .local _ .vmem, ⟨5, _⟩ => ⟨S1x1x1, .f32⟩
  | .local _ .vmem, ⟨6, _⟩ => ⟨S1x1x1, .f32⟩
  | .local _ .vmem, ⟨7, _⟩ => ⟨S1x1, .f32⟩
  | _, _ => ⟨S524288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v31 : BitVec 1 := Scalar.cmpi .eq arg1 c63_i32
  let v32 : BitVec 32 := Scalar.extui v31
  let c0_i32_14 : BitVec 32 := 0#32
  let v33 : BitVec 1 := Scalar.cmpi .ne v32 c0_i32_14
  v33

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S256_S1x256 : S256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x256_S4096x256_0_0 : ∀ a, (![0, 0] : Fin 2 → Nat) a + S4096x256.size a ≤ S4096x256.size a
  h_S4096x256 : 0 < S4096x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S4096x256_S4096 : S4096x256.Reduces [1] S4096
  shapeCasts_S4096_S4096x1 : S4096.ShapeCasts S4096x1
  broadcasts_S4096x1_S4096x256 : S4096x1.Broadcasts S4096x256
  broadcasts_S1x256_S4096x256 : S1x256.Broadcasts S4096x256
  reduces_S4096x256_S256 : S4096x256.Reduces [0] S256
  reduces_S1x256_S1 : S1x256.Reduces [1] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S524288x256.size a
  hwx0_0 : ∀ i : grid0.Coords, EltTy.bits .f32 = 32 ∨ (Rect.block (s := S524288x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S524288x256.size a
  hwx0_1 : ∀ i : grid0.Coords, EltTy.bits .f32 = 32 ∨ (Rect.block (s := S524288x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S524288x256 : Shape := ⟨2, ![524288, 256]⟩
abbrev S256 : Shape := ⟨1, ![256]⟩
abbrev S_ : Shape := ⟨0, ![]⟩
abbrev S524288 : Shape := ⟨1, ![524288]⟩
abbrev S524288x1 : Shape := ⟨2, ![524288, 1]⟩
abbrev S1x256 : Shape := ⟨2, ![1, 256]⟩

abbrev nBuf : Space → Nat
  | .hbm => 29
  | .vmem => 0
  | .smem => 0
  | _ => 0

abbrev bufTy : (tb : Table) → Fin (tcTables nBuf tb) → BufTy
  | .hbm, ⟨0, _⟩ => ⟨S524288x256, .f32⟩
  | .hbm, ⟨1, _⟩ => ⟨S524288x256, .f32⟩
  | .hbm, ⟨2, _⟩ => ⟨S256, .f32⟩
  | .hbm, ⟨3, _⟩ => ⟨S_, .f32⟩
  | .hbm, ⟨4, _⟩ => ⟨S524288, .f32⟩
  | .hbm, ⟨5, _⟩ => ⟨S_, .f32⟩
  | .hbm, ⟨6, _⟩ => ⟨S524288, .f32⟩
  | .hbm, ⟨7, _⟩ => ⟨S524288, .f32⟩
  | .hbm, ⟨8, _⟩ => ⟨S524288x1, .f32⟩
  | .hbm, ⟨9, _⟩ => ⟨S524288x256, .f32⟩
  | .hbm, ⟨10, _⟩ => ⟨S524288x256, .f32⟩
  | .hbm, ⟨11, _⟩ => ⟨S524288x256, .f32⟩
  | .hbm, ⟨12, _⟩ => ⟨S_, .f32⟩
  | .hbm, ⟨13, _⟩ => ⟨S524288, .f32⟩
  | .hbm, ⟨14, _⟩ => ⟨S524288x1, .f32⟩
  | .hbm, ⟨15, _⟩ => ⟨S524288x1, .f32⟩
  | .hbm, ⟨16, _⟩ => ⟨S524288x256, .f32⟩
  | .hbm, ⟨17, _⟩ => ⟨S524288x256, .f32⟩
  | .hbm, ⟨18, _⟩ => ⟨S1x256, .f32⟩
  | .hbm, ⟨19, _⟩ => ⟨S524288x256, .f32⟩
  | .hbm, ⟨20, _⟩ => ⟨S524288x256, .f32⟩
  | .hbm, ⟨21, _⟩ => ⟨S524288x256, .f32⟩
  | .hbm, ⟨22, _⟩ => ⟨S_, .f32⟩
  | .hbm, ⟨23, _⟩ => ⟨S524288, .f32⟩
  | .hbm, ⟨24, _⟩ => ⟨S524288, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S524288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩

abbrev nD : Nat := 1
abbrev τ : Topo := Topo.v7x

variable {F : FTy → Type} [FloatOps F]

class Facts₀ : Prop where
  reducesTo_S524288x256_S524288_d1 : S524288x256.ReducesTo [1] S524288
  h_S_ : 0 < S_.numel
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x256_0_1 : S524288x1.BroadcastsInDim S524288x256 (![0, 1] : Fin 2 → Fin S524288x256.rank)
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  reducesTo_S524288_S_d0 : S524288.ReducesTo [0] S_

variable [Facts₀]

class Facts : Prop extends Facts₀ where

variable [Facts]
-- ==== Proof.Algebra.lean ====
/-
  The mathematics of the weighted soft cross-entropy mean, with no program in sight.

  For a row `x` of 256 logits, target row `t` and class weights `w`, the weighted log-probability at class `k` is
  `(t k · w k) · ((x k - M) - log ∑ₖ' exp (x k' - M))` with `M` the row's maximum. Over finite inputs every such term is
  a real number (the shifted exponentials are positive, so the logarithm's argument is positive), and then the sum of the
  terms over all 524288 rows does not depend on how it is grouped: by rows first and classes second, or by blocks of 4096
  rows, classes inside a block, the blocks accumulated one after the other in two runs of 64 whose two results are scaled
  by `1/524288` and added. This module proves exactly that regrouping.
-/
import Idealize.ShloMosaic.PureOps.Ideal
import Idealize.ShloMosaic.Lib.ValueIdx

noncomputable section

namespace Cert.SoftCE

open Idealize.ShloMosaic

/-! ## Finite sums and maxima of reals inside the extended reals -/

/-- The coercion from the reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running maximum from `-∞` of finitely many reals is `-∞` over the empty set and a real otherwise. -/
theorem fold_max_coe {ι : Type*} [DecidableEq ι] (s : Finset ι) (f : ι → ℝ) :
    (s = ∅ ∧ s.fold max (⊥ : EReal) (fun k => (f k : EReal)) = ⊥)
      ∨ ∃ r : ℝ, s.fold max (⊥ : EReal) (fun k => (f k : EReal)) = (r : EReal) := by
  induction s using Finset.induction_on with
  | empty => exact Or.inl ⟨rfl, Finset.fold_empty⟩
  | insert a s ha ih =>
    right
    rw [Finset.fold_insert ha]
    rcases ih with ⟨-, h⟩ | ⟨r, h⟩
    · exact ⟨f a, by rw [h]; exact max_eq_left bot_le⟩
    · exact ⟨max (f a) r, by rw [h]; exact (EReal.coe_strictMono.monotone.map_max).symm⟩

/-! ## One row -/

/-- A row's maximum, folded from `-∞`. -/
def rowMax (x : Fin 256 → EReal) : EReal := (Finset.univ : Finset (Fin 256)).fold max ⊥ x

/-- The log-probability of class `k` in the row `x`, computed with the row's maximum subtracted first. -/
def logProb (x : Fin 256 → EReal) (k : Fin 256) : EReal :=
  (x k - rowMax x) - Ideal.log (∑ k' : Fin 256, Ideal.exp (x k' - rowMax x))

/-- The weighted term of class `k`: target times class weight times log-probability. -/
def wterm (x t w : Fin 256 → EReal) (k : Fin 256) : EReal := (t k * w k) * logProb x k

/-- Over real rows every weighted term is a real number. -/
theorem wterm_real (xr tr wr : Fin 256 → ℝ) (k : Fin 256) :
    ∃ r : ℝ, wterm (fun k => (xr k : EReal)) (fun k => (tr k : EReal)) (fun k => (wr k : EReal)) k = (r : EReal) := by
  obtain ⟨M, hM⟩ : ∃ M : ℝ, rowMax (fun k => (xr k : EReal)) = (M : EReal) := by
    rcases fold_max_coe (Finset.univ : Finset (Fin 256)) xr with ⟨h, -⟩ | h
    · exact absurd h (Finset.univ_nonempty (α := Fin 256)).ne_empty
    · exact h
  have hpos : 0 < ∑ k' : Fin 256, Real.exp (xr k' - M) :=
    Finset.sum_pos (fun i _ => Real.exp_pos _) Finset.univ_nonempty
  refine ⟨(tr k * wr k) * ((xr k - M) - Real.log (∑ k' : Fin 256, Real.exp (xr k' - M))), ?_⟩
  unfold wterm logProb
  rw [hM]
  have hs : (∑ k' : Fin 256, Ideal.exp ((xr k' : EReal) - (M : EReal)))
      = ((∑ k' : Fin 256, Real.exp (xr k' - M) : ℝ) : EReal) := by
    rw [coe_sum]
    exact Finset.sum_congr rfl fun k' _ => by rw [← EReal.coe_sub]; rfl
  rw [hs, Ideal.log_coe, if_neg (not_le.mpr hpos), ← EReal.coe_sub, ← EReal.coe_sub, ← EReal.coe_mul, ← EReal.coe_mul]

/-! ## Blocks of rows and the accumulation over them -/

/-- Row `r` of block `t`: blocks are 4096 consecutive rows. -/
def blockRow (t : Fin 128) (r : Fin 4096) : Fin 524288 :=
  ⟨t.val * 4096 + r.val, by have := t.isLt; have := r.isLt; omega⟩

/-- The sum of a block's terms, rows summed inside each class, then the classes. -/
def blockSum (g : Fin 524288 → Fin 256 → EReal) (t : Fin 128) : EReal :=
  ∑ k : Fin 256, ∑ r : Fin 4096, g (blockRow t r) k

/-- The accumulator after block `n`: it restarts from zero at blocks 0 and 64 and otherwise adds the negated block sum
    to what the block before left. -/
def acc (g : Fin 524288 → Fin 256 → EReal) : (n : ℕ) → n < 128 → EReal
  | 0, h => 0 + (0 - blockSum g ⟨0, h⟩)
  | n + 1, h =>
    if (n + 1) % 64 = 0 then 0 + (0 - blockSum g ⟨n + 1, h⟩)
    else acc g n (Nat.lt_of_succ_lt h) + (0 - blockSum g ⟨n + 1, h⟩)

theorem acc_reset (g : Fin 524288 → Fin 256 → EReal) (n : ℕ) (h : n < 128) (h0 : n % 64 = 0) :
    acc g n h = 0 + (0 - blockSum g ⟨n, h⟩) := by
  cases n with
  | zero => rfl
  | succ n => exact if_pos h0

theorem acc_step (g : Fin 524288 → Fin 256 → EReal) (n : ℕ) (h : n + 1 < 128) (h0 : ¬(n + 1) % 64 = 0) :
    acc g (n + 1) h = acc g n (Nat.lt_of_succ_lt h) + (0 - blockSum g ⟨n + 1, h⟩) := if_neg h0

/-- A row is a block and a row inside it: quotient and remainder by 4096. -/
def blockEquiv : Fin 128 × Fin 4096 ≃ Fin 524288 where
  toFun p := blockRow p.1 p.2
  invFun i := (⟨i.val / 4096, by have := i.isLt; omega⟩, ⟨i.val % 4096, by omega⟩)
  left_inv p := by
    obtain ⟨t, r⟩ := p
    have ht := t.isLt
    have hr := r.isLt
    refine Prod.ext (Fin.ext ?_) (Fin.ext ?_)
    · show (t.val * 4096 + r.val) / 4096 = t.val
      omega
    · show (t.val * 4096 + r.val) % 4096 = r.val
      omega
  right_inv i := Fin.ext (by
    show i.val / 4096 * 4096 + i.val % 4096 = i.val
    omega)

/-- The 524288 rows are the 128 blocks of 4096 rows. -/
theorem sum_blocks (f : Fin 524288 → ℝ) : ∑ i, f i = ∑ t : Fin 128, ∑ r : Fin 4096, f (blockRow t r) :=
  ((Equiv.sum_comp blockEquiv f).symm).trans (Fintype.sum_prod_type fun p => f (blockEquiv p))

/-- THE REGROUPING. When every term is real, the two accumulator runs scaled by `1/524288` and added are the mean of the
    negated row sums. -/
theorem total_eq (g : Fin 524288 → Fin 256 → EReal) (hg : ∀ i k, ∃ r : ℝ, g i k = (r : EReal)) :
    0 + (acc g 63 (by norm_num) * ((1 / 524288 : ℝ) : EReal) + acc g 127 (by norm_num) * ((1 / 524288 : ℝ) : EReal))
      = Ideal.div (0 + ∑ i : Fin 524288, -(0 + ∑ k : Fin 256, g i k)) ((524288 : ℝ) : EReal) := by
  choose gr hgr using hg
  obtain rfl : g = fun i k => (gr i k : EReal) := funext fun i => funext fun k => hgr i k
  -- the real block sums, indexed by naturals
  let Sr : ℕ → ℝ := fun n => if h : n < 128 then ∑ k : Fin 256, ∑ r : Fin 4096, gr (blockRow ⟨n, h⟩ r) k else 0
  have hblock : ∀ (n : ℕ) (h : n < 128), blockSum (fun i k => (gr i k : EReal)) ⟨n, h⟩ = (Sr n : EReal) := by
    intro n h
    show _ = ((if h : n < 128 then ∑ k : Fin 256, ∑ r : Fin 4096, gr (blockRow ⟨n, h⟩ r) k else 0 : ℝ) : EReal)
    rw [dif_pos h, coe_sum]
    exact Finset.sum_congr rfl fun k _ => (coe_sum _ _).symm
  have hacc : ∀ (c : ℕ) (hc : c < 2) (j : ℕ) (hj : j < 64),
      acc (fun i k => (gr i k : EReal)) (64 * c + j) (by omega)
        = ((-(∑ i ∈ Finset.range (j + 1), Sr (64 * c + i)) : ℝ) : EReal) := by
    intro c hc j
    induction j with
    | zero =>
      intro hj
      rw [acc_reset _ (64 * c + 0) (by omega) (by omega), hblock, Finset.sum_range_one, zero_add, zero_sub,
        ← EReal.coe_neg]
    | succ j ih =>
      intro hj
      have hstep := acc_step (fun i k => (gr i k : EReal)) (64 * c + j) (by omega) (by omega)
      refine hstep.trans ?_
      rw [ih (by omega), hblock, zero_sub, ← EReal.coe_neg, ← EReal.coe_add, EReal.coe_eq_coe_iff]
      have e : Sr (64 * c + (j + 1)) = Sr (64 * c + j + 1) := rfl
      rw [Finset.sum_range_succ (fun i => Sr (64 * c + i)) (j + 1), e]
      ring
  have h63 := hacc 0 (by norm_num) 63 (by norm_num)
  have h127 := hacc 1 (by norm_num) 63 (by norm_num)
  simp only [Nat.reduceMul, Nat.reduceAdd, Nat.zero_add] at h63 h127
  rw [show acc (fun i k => (gr i k : EReal)) 63 (by norm_num) = _ from h63,
    show acc (fun i k => (gr i k : EReal)) 127 (by norm_num) = _ from h127]
  rw [Ideal.div_coe (by norm_num : (524288 : ℝ) ≠ 0)]
  have hrow : ∀ i : Fin 524288, -(0 + ∑ k : Fin 256, (gr i k : EReal)) = ((-(∑ k : Fin 256, gr i k) : ℝ) : EReal) := by
    intro i
    rw [zero_add, ← coe_sum, ← EReal.coe_neg]
  rw [Finset.sum_congr rfl fun i _ => hrow i, ← coe_sum, zero_add, zero_add, ← EReal.coe_mul, ← EReal.coe_mul,
    ← EReal.coe_add, ← EReal.coe_mul, EReal.coe_eq_coe_iff]
  -- now over the reals
  have hsplit : ∑ n ∈ Finset.range 128, Sr n
      = ∑ i ∈ Finset.range 64, Sr i + ∑ i ∈ Finset.range 64, Sr (64 + i) :=
    Finset.sum_range_add Sr 64 64
  have hSr : ∑ n ∈ Finset.range 128, Sr n = ∑ t : Fin 128, ∑ k : Fin 256, ∑ r : Fin 4096, gr (blockRow t r) k := by
    rw [Finset.sum_range]
    exact Finset.sum_congr rfl fun t _ => dif_pos t.isLt
  have hall : ∑ i : Fin 524288, (-(∑ k : Fin 256, gr i k)) = -(∑ n ∈ Finset.range 128, Sr n) := by
    rw [Finset.sum_neg_distrib, hSr, sum_blocks, neg_inj]
    exact Finset.sum_congr rfl fun t _ => Finset.sum_comm
  rw [hall, hsplit]
  ring

end Cert.SoftCE

end
-- ==== Proof.Consts.lean ====
/-
  The float constants the two programs spell, as the extended reals their bit patterns denote.

  `0x36000000` is the f32 with exponent field 108 and zero mantissa, that is `2^(108-127) = 2^-19 = 1/524288`;
  `0x49000000` has exponent field 146 and zero mantissa, `2^19 = 524288`; `0xFF800000` is `-∞`. Both scales are exact
  dyadic rationals, so multiplying a running sum by the first and dividing it by the second are the same operation on
  the extended reals.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `-inf`'s pattern denotes the bottom of the extended reals. -/
theorem ofBits_neg_inf : Ideal.ofBits .f32 0xFF800000#32 = ⊥ := by
  simp [Ideal.ofBits, Ideal.ieee]

/-- The kernel's scale `1.90734863E-6` is exactly `1/524288`. -/
theorem ofBits_inv_n : Ideal.ofBits .f32 0x36000000#32 = ((1 / 524288 : ℝ) : EReal) := by
  simp [Ideal.ofBits, Ideal.ieee, -EReal.coe_mul]; norm_num

/-- The reference's divisor `5.242880e+05` is exactly `524288`. -/
theorem ofBits_n : Ideal.ofBits .f32 0x49000000#32 = ((524288 : ℝ) : EReal) := by
  simp [Ideal.ofBits, Ideal.ieee, -EReal.coe_mul]; norm_num

end Cert.Consts

end
-- ==== Proof.LibColumn.lean ====
/-
  Keepdims columns.

  A vector of `a` entries viewed as a column `[a, 1]` holds entry `i` at `(i, 0)`: the row-major position of `(i, u)` in
  `[a, 1]` is `i · 1 + u = i`.
-/
import Idealize.ShloMosaic.Lib.Pipeline.Value
import Idealize.ShloMosaic.Lib.ValueIdx

namespace Idealize.ShloMosaic.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.LibColumn
-- ==== Proof.LibColumnBroadcast.lean ====
/-
  One column broadcast over many.

  A keepdims column `[a, 1]` broadcast to `[a, b]` holds, at `(p, c)`, the column's entry of row `p`: the operand's second
  axis is a unit axis, so the broadcast reads it at `0`, and the first axis is carried along.
-/
import Idealize.ShloMosaic.Lib.Pipeline.Value
import Idealize.ShloMosaic.Lib.ValueIdx

namespace Idealize.ShloMosaic.LibColumnBroadcast

open Idealize.ShloMosaic Idealize.ShloMosaic.ValueIdx

variable {α : Type}

/-- An `[a, 1]` array broadcast to `[a, b]` reads, at `(p, c)`, the operand's entry `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.LibColumnBroadcast
-- ==== Proof.BlockValue.lean ====
/-
  What one grid point adds to the accumulator.

  The body reads a block `x` of 4096 rows of logits, the matching block `t` of targets and the row `w` of class weights. Row
  by row it subtracts the row's maximum, exponentiates, sums over the 256 classes, takes the logarithm and subtracts it:
  the row's log-probabilities. It multiplies by `t · w`, sums the products over the rows inside each class, then over the
  classes, negates (as `0 - s`) and adds the result to the accumulator's one cell. At the extended reals a lane or
  sublane reduction from the zero pattern is the plain finite sum, and a lane maximum from `-∞` the fold of `max`, so the
  cell ends at `acc + (0 - ∑ₖ ∑ᵣ wterm (x r) (t r) w k)`.
-/
import proofs.«167388_j83476984365621_2_alg».proof.Proof.Gen.KernelIdeal.Skeleton
import proofs.«167388_j83476984365621_2_alg».proof.Proof.Algebra
import proofs.«167388_j83476984365621_2_alg».proof.Proof.Consts
import proofs.«167388_j83476984365621_2_alg».proof.Proof.LibColumn
import proofs.«167388_j83476984365621_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Cert.SoftCE
open Idealize.ShloMosaic Idealize.ShloMosaic.ValueIdx Idealize.ShloMosaic.LibColumn Idealize.ShloMosaic.LibColumnBroadcast

/-! ## The reductions read at an index -/

/-- A sum over the 256 lanes of a block, at row `r`. -/
theorem lane_sum (v : FVec Ideal S4096x256 .f32) (h : S4096x256.Reduces [1] S4096) (hφ : FKind.Formats .f32)
    (hacc : (0x00000000#32 : BitVec FTy.f32.bits) = FKind.add.neutral .f32 hφ) (r : Fin 4096) :
    multiReduction .add [1] S4096 v 0x00000000#32 h hφ hacc (ix1 r) = ∑ k : Fin 256, v (ix2 r k) :=
  (Ideal.multiReduction_add_single v _ h hφ hacc (ix1 r)).trans
    (Finset.sum_congr rfl fun k _ => congrArg v (funext fun a => Fin.ext (by
      match a with
      | ⟨0, _⟩ => rfl
      | ⟨1, _⟩ => rfl)))

/-- A sum over the 4096 rows of a block, at class `k`. -/
theorem row_sum (v : FVec Ideal S4096x256 .f32) (h : S4096x256.Reduces [0] S256) (hφ : FKind.Formats .f32)
    (hacc : (0x00000000#32 : BitVec FTy.f32.bits) = FKind.add.neutral .f32 hφ) (k : Fin 256) :
    multiReduction .add [0] S256 v 0x00000000#32 h hφ hacc (ix1 k) = ∑ r : Fin 4096, v (ix2 r k) :=
  (Ideal.multiReduction_add_single v _ h hφ hacc (ix1 k)).trans
    (Finset.sum_congr rfl fun r _ => congrArg v (funext fun a => Fin.ext (by
      match a with
      | ⟨0, _⟩ => rfl
      | ⟨1, _⟩ => rfl)))

/-- A sum over the 256 lanes of a single row. -/
theorem lane_sum_one (v : FVec Ideal S1x256 .f32) (h : S1x256.Reduces [1] S1) (hφ : FKind.Formats .f32)
    (hacc : (0x00000000#32 : BitVec FTy.f32.bits) = FKind.add.neutral .f32 hφ) (u : Fin 1) :
    multiReduction .add [1] S1 v 0x00000000#32 h hφ hacc (ix1 u) = ∑ k : Fin 256, v (ix2 u k) :=
  (Ideal.multiReduction_add_single v _ h hφ hacc (ix1 u)).trans
    (Finset.sum_congr rfl fun k _ => congrArg v (funext fun a => Fin.ext (by
      match a with
      | ⟨0, _⟩ => rfl
      | ⟨1, _⟩ => rfl)))

/-- The maximum over the 256 lanes, from `-∞`, at row `r`: that row's maximum. -/
theorem lane_max (v : FVec Ideal S4096x256 .f32) (h : S4096x256.Reduces [1] S4096) (hφ : FKind.Formats .f32)
    (hacc : (0xFF800000#32 : BitVec FTy.f32.bits) = FKind.maximumf.neutral .f32 hφ) (r : Fin 4096) :
    multiReduction .maximumf [1] S4096 v 0xFF800000#32 h hφ hacc (ix1 r) = rowMax (fun k => v (ix2 r k)) := by
  refine (Ideal.multiReduction_maximumf_single v _ h hφ hacc (ix1 r)).trans ?_
  show (Finset.univ : Finset (Fin 256)).fold max (Ideal.ofBits .f32 0xFF800000#32) (v ∘ h.lift (ix1 r)) = _
  rw [Cert.Consts.ofBits_neg_inf]
  refine congrArg (fun f => (Finset.univ : Finset (Fin 256)).fold max (⊥ : EReal) f) (funext fun k => ?_)
  exact congrArg v (funext fun a => Fin.ext (by
    match a with
    | ⟨0, _⟩ => rfl
    | ⟨1, _⟩ => rfl))

/-! ## The row-wise pieces of the body -/

/-- A block minus its rows' maxima (the maxima reduced over the lanes, kept as a column, broadcast back), at `(r, k)`. -/
theorem shifted_apply (x : FVec Ideal S4096x256 .f32) (h : S4096x256.Reduces [1] S4096) (hφ : FKind.Formats .f32)
    (hacc : (0xFF800000#32 : BitVec FTy.f32.bits) = FKind.maximumf.neutral .f32 hφ)
    (hsc : S4096.ShapeCasts S4096x1) (hbc : S4096x1.Broadcasts S4096x256) (r : Fin 4096) (k : Fin 256) :
    subf x (broadcastTo S4096x256 (shapeCast S4096x1 (multiReduction .maximumf [1] S4096 x 0xFF800000#32 h hφ hacc) hsc) hbc)
        (ix2 r k)
      = x (ix2 r k) - rowMax (fun k' => x (ix2 r k')) := by
  show x (ix2 r k) - broadcastTo S4096x256 _ hbc (ix2 r k) = _
  refine congrArg (x (ix2 r k) - ·) ?_
  refine (broadcastTo_a1_ab_apply _ hbc r k).trans ?_
  refine (shapeCast_a_a1_apply _ hsc r 0).trans ?_
  exact lane_max x h hφ hacc r

/-- The logarithm of a block's row sums of exponentials (summed over the lanes, kept as a column, broadcast back), at
    `(r, k)`. -/
theorem logsum_apply (s : FVec Ideal S4096x256 .f32) (h : S4096x256.Reduces [1] S4096) (hφ : FKind.Formats .f32)
    (hacc : (0x00000000#32 : BitVec FTy.f32.bits) = FKind.add.neutral .f32 hφ)
    (hsc : S4096.ShapeCasts S4096x1) (hbc : S4096x1.Broadcasts S4096x256) (r : Fin 4096) (k : Fin 256) :
    broadcastTo S4096x256 (log (shapeCast S4096x1 (multiReduction .add [1] S4096 (exp s) 0x00000000#32 h hφ hacc) hsc)) hbc
        (ix2 r k)
      = Ideal.log (∑ k' : Fin 256, Ideal.exp (s (ix2 r k'))) := by
  refine (broadcastTo_a1_ab_apply _ hbc r k).trans ?_
  show Ideal.log (shapeCast S4096x1 _ hsc (ix2 r (0 : Fin 1))) = _
  refine congrArg Ideal.log ?_
  refine (shapeCast_a_a1_apply _ hsc r 0).trans ?_
  exact (lane_sum (exp s) h hφ hacc r).trans (Finset.sum_congr rfl fun k' _ => rfl)

/-! ## The accumulator's cell after the body -/

/-- The value the body stores into the accumulator: the cell's previous value plus the negated block sum of the weighted
    terms. -/
theorem acc_cell (x t : Vec Ideal S4096x256 .f32) (w : Vec Ideal S1x256 .f32) (old : Vec Ideal S1x1 .f32) (a b : Fin 1) :
    k0_pay2 (F := Ideal) x t w old (ix2 a b)
      = old (ix2 a b)
        + (0 - ∑ k : Fin 256, ∑ r : Fin 4096,
            wterm (fun k' => x (ix2 r k')) (fun k' => t (ix2 r k')) (fun k' => w (ix2 (0 : Fin 1) k')) k) := by
  unfold k0_pay2
  refine (congrFun (shapeCast_self _ _) (ix2 a b)).trans ?_
  show old (ix2 a b) + (Ideal.ofBits .f32 0x00000000#32 - shapeCast S1x1 _ _ (ix2 a b)) = _
  refine congrArg (old (ix2 a b) + ·) ?_
  refine congrArg₂ (· - ·) Cert.Consts.ofBits_zero ?_
  refine (shapeCast_a_1a_apply _ _ a b).trans ?_
  refine (lane_sum_one _ _ _ _ b).trans (Finset.sum_congr rfl fun k _ => ?_)
  refine (shapeCast_a_1a_apply _ _ b k).trans ?_
  refine (row_sum _ _ _ _ k).trans (Finset.sum_congr rfl fun r _ => ?_)
  show (t (ix2 r k) * broadcastTo S4096x256 _ _ (ix2 r k))
      * (subf (F := Ideal) (s := S4096x256) (φ := .f32) x _ (ix2 r k) - broadcastTo S4096x256 _ _ (ix2 r k)) = _
  unfold wterm logProb
  refine congrArg₂ (· * ·) (congrArg (t (ix2 r k) * ·) ?_) (congrArg₂ (· - ·) ?_ ?_)
  · exact (broadcastTo_1b_ab_apply _ _ r k).trans (congrFun (shapeCast_self w _) _)
  · exact shifted_apply x _ _ _ _ _ r k
  · refine (logsum_apply _ _ _ _ _ _ r k).trans ?_
    exact congrArg Ideal.log (Finset.sum_congr rfl fun k' _ => congrArg Ideal.exp (shifted_apply x _ _ _ _ _ r k'))

/-- The value the reset stores: zero. -/
theorem reset_cell (i : S1x1.Idx) : k0_pay1 (F := Ideal) i = 0 := by
  unfold k0_pay1
  refine (congrFun (shapeCast_self _ _) i).trans ?_
  exact Cert.Consts.ofBits_zero

/-- The value the last point of a run stores into the output block: the accumulator's cell times `1/524288`. -/
theorem out_cell (accv : Vec Ideal S1x1 .f32) (u a b : Fin 1) :
    k0_pay3 (F := Ideal) accv (ix3 u a b) = accv (ix2 a b) * ((1 / 524288 : ℝ) : EReal) := by
  unfold k0_pay3
  refine (shapeCast_ab_1ab_apply _ _ u a b).trans ?_
  show accv (ix2 a b) * Ideal.ofBits .f32 0x36000000#32 = _
  rw [Cert.Consts.ofBits_inv_n]

end Cert.KernelIdeal.BlockValue

end
-- ==== Proof.Pieces.lean ====
/-
  What each control case of the body leaves behind, as values.

  The body has three cases. At the first point of a run (grid coordinate 1 equal to 0) it stores zero into the
  accumulator, reads it back and stores `old + partial` with `old` that zero. At the inner points it stores
  `old + partial` with `old` what the point before left. At the last point of a run (coordinate 1 equal to 63) it does
  the same and then stores the scaled accumulator into the output block. Every store covers its whole buffer through a
  rectangle at zero offsets and every load reads a whole buffer, so what a buffer holds afterwards is the last store's
  payload with the loads replaced by the buffers' contents.
-/
import proofs.«167388_j83476984365621_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point of a run: the accumulator ends at the body's sum over the zero it has just stored. -/
theorem scratch_A (c : Dev nD) (i : grid0.Coords) (arg2 : Memref sig .tc .vmem S4096x256 .f32) (harg2 : arg2.IsWhole) (arg3 : Memref sig .tc .vmem S4096x256 .f32) (harg3 : arg3.IsWhole) (arg4 : Memref sig .tc .vmem S1x256 .f32) (harg4 : arg4.IsWhole) (arg5 : Memref sig .tc .vmem S1x1x1 .f32) (harg5 : arg5.IsWhole) (arg6 : Memref sig .tc .vmem S1x1 .f32) (harg6 : arg6.IsWhole) (hc0 : cond0_0 i) (hc1 : ¬cond0_1 i)
    (x0 : Vec F S4096x256 .f32) (x1 : Vec F S4096x256 .f32) (x2 : Vec F S1x256 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread,
    View.ld_unit_zero (S := S4096x256) hz2, View.ld_unit_zero (S := S1x256) hz2]

/-- Inner point: the accumulator ends at the body's sum over what the point before left. -/
theorem scratch_B (c : Dev nD) (i : grid0.Coords) (arg2 : Memref sig .tc .vmem S4096x256 .f32) (harg2 : arg2.IsWhole) (arg3 : Memref sig .tc .vmem S4096x256 .f32) (harg3 : arg3.IsWhole) (arg4 : Memref sig .tc .vmem S1x256 .f32) (harg4 : arg4.IsWhole) (arg5 : Memref sig .tc .vmem S1x1x1 .f32) (harg5 : arg5.IsWhole) (arg6 : Memref sig .tc .vmem S1x1 .f32) (harg6 : arg6.IsWhole) (hc0 : ¬cond0_0 i) (hc1 : ¬cond0_1 i)
    (x0 : Vec F S4096x256 .f32) (x1 : Vec F S4096x256 .f32) (x2 : Vec F S1x256 .f32) (xs0 : Vec F S1x1 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S1x1) hz2]
  simp only [View.readAt_eq_ld, harg2.read_unread, harg3.read_unread, harg4.read_unread, harg6.read_unread,
    View.ld_unit_zero (S := S4096x256) hz2, View.ld_unit_zero (S := S1x256) hz2, View.ld_unit_zero (S := S1x1) hz2]

/-- Last point of a run: the accumulator likewise, -/
theorem scratch_C (c : Dev nD) (i : grid0.Coords) (arg2 : Memref sig .tc .vmem S4096x256 .f32) (harg2 : arg2.IsWhole) (arg3 : Memref sig .tc .vmem S4096x256 .f32) (harg3 : arg3.IsWhole) (arg4 : Memref sig .tc .vmem S1x256 .f32) (harg4 : arg4.IsWhole) (arg5 : Memref sig .tc .vmem S1x1x1 .f32) (harg5 : arg5.IsWhole) (arg6 : Memref sig .tc .vmem S1x1 .f32) (harg6 : arg6.IsWhole) (hc0 : ¬cond0_0 i) (hc1 : cond0_1 i)
    (x0 : Vec F S4096x256 .f32) (x1 : Vec F S4096x256 .f32) (x2 : Vec F S1x256 .f32) (xs0 : Vec F S1x1 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S1x1) hz2]
  simp only [View.readAt_eq_ld, harg2.read_unread, harg3.read_unread, harg4.read_unread, harg6.read_unread,
    View.ld_unit_zero (S := S4096x256) hz2, View.ld_unit_zero (S := S1x256) hz2, View.ld_unit_zero (S := S1x1) hz2]

/-- and the output block ends at the scaled accumulator. -/
theorem out_C (c : Dev nD) (i : grid0.Coords) (arg2 : Memref sig .tc .vmem S4096x256 .f32) (harg2 : arg2.IsWhole) (arg3 : Memref sig .tc .vmem S4096x256 .f32) (harg3 : arg3.IsWhole) (arg4 : Memref sig .tc .vmem S1x256 .f32) (harg4 : arg4.IsWhole) (arg5 : Memref sig .tc .vmem S1x1x1 .f32) (harg5 : arg5.IsWhole) (arg6 : Memref sig .tc .vmem S1x1 .f32) (harg6 : arg6.IsWhole) (hc0 : ¬cond0_0 i) (hc1 : cond0_1 i)
    (x0 : Vec F S4096x256 .f32) (x1 : Vec F S4096x256 .f32) (x2 : Vec F S1x256 .f32) (xs0 : Vec F S1x1 .f32) :
    out0_C_3 c i arg2 harg2 arg3 harg3 arg4 harg4 arg5 harg5 arg6 harg6 hc0 hc1 x0 x1 x2 xs0 = k0_pay3 (k0_pay2 x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S1x1x1) hz3, View.readCov_unit_zero (S := S1x1) _ hz2]
  simp only [View.readAt_eq_ld, harg2.read_unread, harg3.read_unread, harg4.read_unread, harg6.read_unread,
    View.ld_unit_zero (S := S4096x256) hz2, View.ld_unit_zero (S := S1x256) hz2, View.ld_unit_zero (S := S1x1) hz2]

end Cert.KernelIdeal.Pieces

end
-- ==== Proof.Accum.lean ====
/-
  The accumulator over the grid, and the output array.

  Grid point `n` (of 128: two runs of 64) reads block `n` of the logits and of the targets — rows `4096 n … 4096 n + 4095` —
  and the whole row of class weights. By induction on the point, the accumulator's cell after point `n` is `acc g n` of
  Algebra.lean, with `g i k` the weighted term of row `i` and class `k` of the arrays as the region finds them: it restarts
  at points 0 and 64 and otherwise adds the point's negated block sum. The last point of each run writes the cell times
  `1/524288` into its entry of the two-entry output array, so that array ends at `acc g 63 / 524288` and
  `acc g 127 / 524288`.
-/
import proofs.«167388_j83476984365621_2_alg».proof.Proof.Gen.KernelIdeal.Frame
import proofs.«167388_j83476984365621_2_alg».proof.Proof.BlockValue
import proofs.«167388_j83476984365621_2_alg».proof.Proof.Pieces
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.SoftCE

variable (m : (ℓ : Loc nD τ sig) → Buf (Elt Ideal) ℓ)

theorem lt128 {n : ℕ} (h : n < cfg0.N) : n < 128 := lt_of_lt_of_eq h (show cfg0.N = 128 from N_0)

/-! ## The blocks are rows of the arrays -/

/-- The printed index maps, decided over the grid: the two row-blocked inputs are at block `t`, the weights at their one
    block, the output at entry `t / 64`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val / 64 ∧ win0_3.index t (1 : Fin 3) = 0 ∧ win0_3.index t (2 : Fin 3) = 0 :=
  (by decide +kernel : ∀ t : Fin grid0.N, _)

/-- The logits' block at point `t`, at `(r, k)`: the array at row `4096 t + r`. -/
theorem logits_block (c : Dev nD) (t : Fin cfg0.N) (r : Fin 4096) (k : Fin 256) :
    (iblk m c 0 t : Vec Ideal S4096x256 .f32) (ix2 r k)
      = (V m c main_arg0 : S524288x256.Idx → EReal) (ix2 (blockRow ⟨t.val, lt128 t.isLt⟩ r) k) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 4096 + 1 * r.val = t.val * 4096 + r.val; rw [e0]; omega
  | ⟨1, _⟩ => show win0_0.index t (1 : Fin 2) * 256 + 1 * k.val = k.val; rw [e1]; omega

/-- The targets' block likewise. -/
theorem targets_block (c : Dev nD) (t : Fin cfg0.N) (r : Fin 4096) (k : Fin 256) :
    (iblk m c 1 t : Vec Ideal S4096x256 .f32) (ix2 r k)
      = (V m c main_arg1 : S524288x256.Idx → EReal) (ix2 (blockRow ⟨t.val, lt128 t.isLt⟩ r) k) := by
  obtain ⟨-, -, e0, e1, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 4096 + 1 * r.val = t.val * 4096 + r.val; rw [e0]; omega
  | ⟨1, _⟩ => show win0_1.index t (1 : Fin 2) * 256 + 1 * k.val = k.val; rw [e1]; omega

/-- The weights' block at every point is the whole row of weights. -/
theorem weights_block (c : Dev nD) (t : Fin cfg0.N) (u : Fin 1) (k : Fin 256) :
    (iblk m c 2 t : Vec Ideal S1x256 .f32) (ix2 u k) = (V m c main_v0 : S1x256.Idx → EReal) (ix2 (0 : Fin 1) k) := by
  obtain ⟨-, -, -, -, e0, e1, -⟩ := idx_facts t
  unfold iblk
  rw [View.read_apply]
  show V m c main_v0 _ = V m c main_v0 _
  refine congrArg (V m c main_v0) (funext fun a => Fin.ext ?_)
  match a with
  | ⟨0, _⟩ => show win0_2.index t (0 : Fin 2) * 1 + 1 * u.val = 0; rw [e0]; omega
  | ⟨1, _⟩ => show win0_2.index t (1 : Fin 2) * 256 + 1 * k.val = k.val; rw [e1]; omega

/-! ## The weighted terms of the arrays, and a point's block sum -/

/-- The weighted term of row `i` and class `k` of the arrays as the region finds them. -/
def terms (c : Dev nD) (i : Fin 524288) (k : Fin 256) : EReal :=
  wterm (fun k' => (V m c main_arg0 : S524288x256.Idx → EReal) (ix2 i k'))
    (fun k' => (V m c main_arg1 : S524288x256.Idx → EReal) (ix2 i k'))
    (fun k' => (V m c main_v0 : S1x256.Idx → EReal) (ix2 (0 : Fin 1) k')) k

theorem wterm_congr {x x' t t' w w' : Fin 256 → EReal} (hx : x = x') (ht : t = t') (hw : w = w') (k : Fin 256) :
    wterm x t w k = wterm x' t' w' k := by
  subst hx ht hw; rfl

/-- What the body sums at point `t` is block `t`'s sum of the arrays' terms. -/
theorem point_sum (c : Dev nD) (t : Fin cfg0.N) :
    (∑ k : Fin 256, ∑ r : Fin 4096,
        wterm (fun k' => (iblk m c 0 t : Vec Ideal S4096x256 .f32) (ix2 r k'))
          (fun k' => (iblk m c 1 t : Vec Ideal S4096x256 .f32) (ix2 r k'))
          (fun k' => (iblk m c 2 t : Vec Ideal S1x256 .f32) (ix2 (0 : Fin 1) k')) k)
      = blockSum (terms m c) ⟨t.val, lt128 t.isLt⟩ :=
  Finset.sum_congr rfl fun k _ => Finset.sum_congr rfl fun r _ =>
    wterm_congr (funext fun k' => logits_block m c t r k') (funext fun k' => targets_block m c t r k')
      (funext fun k' => weights_block m c t 0 k') k

/-- The accumulator's contents after the body at point `t`, over contents `old` before it. -/
theorem cell_after (c : Dev nD) (t : Fin cfg0.N) (old : Vec Ideal S1x1 .f32) :
    k0_pay2 (F := Ideal) (iblk m c 0 t) (iblk m c 1 t) (iblk m c 2 t) old
      = fun j => old j + (0 - blockSum (terms m c) ⟨t.val, lt128 t.isLt⟩) := by
  funext j
  obtain ⟨a, b, rfl⟩ : ∃ (a b : Fin 1), j = ix2 a b := ⟨j 0, j 1, eq_ix2 j⟩
  exact (BlockValue.acc_cell (iblk m c 0 t) (iblk m c 1 t) (iblk m c 2 t) old a b).trans
    (congrArg (fun s => old (ix2 a b) + (0 - s)) (point_sum m c t))

/-! ## The accumulator after each point -/

/-- After point `n` the accumulator's cell is `acc` of the arrays' terms at `n`. -/
theorem scratch_eq (c : Dev nD) : ∀ (n : ℕ) (h : n < cfg0.N),
    (outsAt0 m c n h).2 = fun _ => acc (terms m c) n (lt128 h)
  | 0, h => by
    rw [outsAt0_A m c ⟨0, h⟩ rfl (by show ¬(0 % 64 = 63); decide)]
    dsimp only
    rw [Pieces.scratch_A, cell_after]
    funext j
    rw [BlockValue.reset_cell]
    rfl
  | n + 1, h => by
    have hN : n + 1 < 128 := lt128 h
    by_cases h0 : (n + 1) % 64 = 0
    · have h1 : ¬(⟨n + 1, h⟩ : Fin cfg0.N).val % 64 = 63 := by dsimp only; omega
      rw [outsAt0_A m c ⟨n + 1, h⟩ h0 h1]
      dsimp only
      rw [Pieces.scratch_A, cell_after]
      funext j
      rw [BlockValue.reset_cell, acc_reset (terms m c) (n + 1) hN h0]
    · by_cases h1 : (n + 1) % 64 = 63
      · rw [outsAt0_C m c ⟨n + 1, h⟩ h0 h1]
        dsimp only
        rw [Pieces.scratch_C, cell_after]
        funext j
        rw [acc_step (terms m c) n hN h0]
        show (outsAt0 m c n _).2 j + _ = _
        rw [scratch_eq c n]
      · rw [outsAt0_B m c ⟨n + 1, h⟩ h0 h1]
        dsimp only
        rw [Pieces.scratch_B, cell_after]
        funext j
        rw [acc_step (terms m c) n hN h0]
        show (outsAt0 m c n _).2 j + _ = _
        rw [scratch_eq c n]

/-- At the last point of a run the output block holds the accumulator's cell times `1/524288`. -/
theorem out_eq (c : Dev nD) (t : Fin cfg0.N) (h63 : t.val % 64 = 63) :
    (outsAt0 m c t.val t.isLt).1 = fun _ => acc (terms m c) t.val (lt128 t.isLt) * ((1 / 524288 : ℝ) : EReal) := by
  have h0 : ¬t.val % 64 = 0 := by omega
  have e := scratch_eq m c t.val t.isLt
  rw [outsAt0_C m c t h0 h63] at e ⊢
  dsimp only at e ⊢
  rw [Pieces.scratch_C] at e
  rw [Pieces.out_C, e]
  funext j
  obtain ⟨u, a, b, rfl⟩ : ∃ (u a b : Fin 1), j = ix3 u a b := ⟨j 0, j 1, j 2, eq_ix3 j⟩
  exact BlockValue.out_cell _ u a b

end Cert.KernelIdeal.Accum

end
-- ==== Proof.KernelResult.lean ====
/-
  The kernel's result.

  The output array has two entries, one per run of 64 grid points; entry `q` is written once, at point `64 q + 63`, with
  the accumulator's cell times `1/524288`. The two write-backs cover the array. The host line after the call sums the
  array from zero, so the program's result is `0 + (acc 63 / 524288 + acc 127 / 524288)`.
-/
import proofs.«167388_j83476984365621_2_alg».proof.Proof.Accum
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.SoftCE Cert.KernelIdeal.Accum

variable (m : (ℓ : Loc nD τ sig) → Buf (Elt Ideal) ℓ) (ρ : Dev nD → PrngReg)

/-- The accumulator after point `n`, for any natural `n` (zero past the grid). -/
def accAt (c : Dev nD) (n : ℕ) : EReal := if h : n < 128 then acc (terms m c) n h else 0

/-- The output array after the call: entry `q` is the accumulator after point `64 q + 63`, times `1/524288`. -/
def outArr (c : Dev nD) : S2x1x1.Idx → EReal := fun i => accAt m c (64 * (i 0).val + 63) * ((1 / 524288 : ℝ) : EReal)

/-- An entry of the output array is in point `t`'s block iff each coordinate is in the block's range. -/
theorem mem_blk (t : Fin cfg0.N) (i : S2x1x1.Idx) :
    i ∈ ((cfg0.win 3).blk t).view.set
      ↔ ∀ a : Fin 3, win0_3.index t a * S1x1x1.size a ≤ (i a).val ∧ (i a).val < win0_3.index t a * S1x1x1.size a + S1x1x1.size a := by
  show i ∈ ((View.whole main_v1).slice (win0_3.rect t)).set ↔ _
  rw [View.set_slice_whole, Rect.mem_set_unit]
  exact Iff.rfl

/-- What a writing point writes back is its block of `outArr`. -/
theorem flushed_eq (c : Dev nD) (t : Fin cfg0.N) (hf : (cfg0.win 3).flush t = true) :
    (dats m 0 c).flushed 3 t = ((cfg0.win 3).blk t).view.read (Elt Ideal) (outArr m c) := by
  have h63 : t.val % 64 = 63 := (flush0_3 t).mp hf
  obtain ⟨-, -, -, -, -, -, e0, -, -⟩ := idx_facts t
  show (cfg0.win 3).cut (grid0.coords t) ((dats m 0 c).after 3 t) = _
  rw [after0_3, out_eq m c t h63]
  funext j
  show acc (terms m c) t.val (lt128 t.isLt) * ((1 / 524288 : ℝ) : EReal) = outArr m c (((cfg0.win 3).blk t).view.emb j)
  have hj : (j 0).val < 1 := (j 0).isLt
  have hv : 64 * ((((cfg0.win 3).blk t).view.emb j) 0).val + 63 = t.val := by
    show 64 * (win0_3.index t (0 : Fin 3) * 1 + 1 * (j 0).val) + 63 = t.val
    rw [e0]; omega
  unfold outArr accAt
  rw [hv, dif_pos (lt128 t.isLt)]

/-- The two writing points cover the output array. -/
theorem cover (i : S2x1x1.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 1 := (i 2).isLt
  have hlt : 64 * (i 0).val + 63 < cfg0.N := lt_of_lt_of_eq (by omega : 64 * (i 0).val + 63 < 128) (N_0).symm
  obtain ⟨-, -, -, -, -, -, e0, e1, e2⟩ := idx_facts ⟨64 * (i 0).val + 63, hlt⟩
  refine ⟨⟨64 * (i 0).val + 63, hlt⟩, (flush0_3 _).mpr (by show (64 * (i 0).val + 63) % 64 = 63; omega), ?_⟩
  rw [mem_blk]
  intro a
  match a with
  | ⟨0, _⟩ =>
    show win0_3.index ⟨64 * (i 0).val + 63, hlt⟩ (0 : Fin 3) * 1 ≤ (i 0).val
      ∧ (i 0).val < win0_3.index ⟨64 * (i 0).val + 63, hlt⟩ (0 : Fin 3) * 1 + 1
    rw [e0]
    show (64 * (i 0).val + 63) / 64 * 1 ≤ (i 0).val ∧ (i 0).val < (64 * (i 0).val + 63) / 64 * 1 + 1
    omega
  | ⟨1, _⟩ =>
    show win0_3.index ⟨64 * (i 0).val + 63, hlt⟩ (1 : Fin 3) * 1 ≤ (i 1).val
      ∧ (i 1).val < win0_3.index ⟨64 * (i 0).val + 63, hlt⟩ (1 : Fin 3) * 1 + 1
    rw [e1]; omega
  | ⟨2, _⟩ =>
    show win0_3.index ⟨64 * (i 0).val + 63, hlt⟩ (2 : Fin 3) * 1 ≤ (i 2).val
      ∧ (i 2).val < win0_3.index ⟨64 * (i 0).val + 63, hlt⟩ (2 : Fin 3) * 1 + 1
    rw [e2]; omega

/-- So the output array ends at `outArr`. -/
theorem final_out (c : Dev nD) : (dats m 0 c).arrAt 3 cfg0.N = outArr m c :=
  (dats m 0 c).arrAt_eq_of_cover 3 (outArr m c) (flushed_eq m c) cover

/-- The host line after the call: the result buffer holds the sum, from zero, of the output array. -/
theorem tail_eq (c : Dev nD) :
    Pipeline.afterTail₀ cfgs (dats m) 0 (V0 m) [hostOps1] c main_v2
      = Host.reduceAdd (outArr m c) (constant (F := Ideal) S_ .f32 0x00000000#32) reducesTo_S2x1x1_S_d0_1_2 h_S_ := by
  unfold Pipeline.afterTail₀
  show StableHlo.after hostOps1 _ (Proc.devRef .tc main_v2) = _
  after_results
  exact congrArg
    (fun x => Host.reduceAdd x (constant (F := Ideal) S_ .f32 0x00000000#32) reducesTo_S2x1x1_S_d0_1_2 h_S_)
    ((Pipeline.withArrays_arr spec0 launch0.win.arr_inj c _ _ 3).trans (final_out m c))

/-! ## The result as a number -/

/-- The program's result buffer: the output array summed from zero. -/
def result (c : Dev nD) : S_.Idx → EReal :=
  Host.reduceAdd (outArr m c) (constant (F := Ideal) S_ .f32 0x00000000#32) reducesTo_S2x1x1_S_d0_1_2 h_S_

/-- The output array's two entries. -/
def entryEquiv : Fin 2 ≃ S2x1x1.Idx where
  toFun q := ix3 q (0 : Fin 1) (0 : Fin 1)
  invFun i := i 0
  left_inv q := rfl
  right_inv i := by
    funext a
    match a with
    | ⟨0, _⟩ => rfl
    | ⟨1, _⟩ => exact Fin.ext (by have h1 : (i 1).val < 1 := (i 1).isLt; show 0 = (i 1).val; omega)
    | ⟨2, _⟩ => exact Fin.ext (by have h2 : (i 2).val < 1 := (i 2).isLt; show 0 = (i 2).val; omega)

theorem accAt_of_lt (c : Dev nD) (n : ℕ) (h : n < 128) : accAt m c n = acc (terms m c) n h := dif_pos h

/-- The result is zero plus the two runs' accumulators, each times `1/524288`. -/
theorem result_apply (c : Dev nD) (i : S_.Idx) :
    result m c i
      = 0 + (acc (terms m c) 63 (by norm_num) * ((1 / 524288 : ℝ) : EReal)
          + acc (terms m c) 127 (by norm_num) * ((1 / 524288 : ℝ) : EReal)) := by
  unfold result
  simp only [Host.reduceAdd, Ideal.hostReduceAdd_def]
  rw [Ideal.hostReduceAdd_total reducesTo_S2x1x1_S_d0_1_2 (fun b => b.elim0) (outArr m c) _ i]
  show Ideal.ofBits .f32 0x00000000#32 + _ = _
  rw [Cert.Consts.ofBits_zero, (Equiv.sum_comp entryEquiv (outArr m c)).symm, Fin.sum_univ_two]
  show 0 + (accAt m c 63 * ((1 / 524288 : ℝ) : EReal) + accAt m c 127 * ((1 / 524288 : ℝ) : EReal)) = _
  rw [accAt_of_lt m c 63 (by norm_num), accAt_of_lt m c 127 (by norm_num)]

/-! ## The run -/

/-- Every weakly fair execution of the program terminates with the result buffer at `result` and the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v2 (Pipeline.mem_restRefs_of main_v2 (by decide) (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.KernelIdeal.Result

end
-- ==== Proof.RefValue.lean ====
/-
  The reference's result as a number.

  The reference computes, for each of the 524288 rows, the log-probabilities with the row's maximum subtracted first (its
  maximum is taken from `-∞` and once more against `-∞`, which changes nothing), multiplies them by target and class
  weight, sums each row over the classes from zero, negates, sums the rows from zero and divides by 524288. Read at the
  extended reals, one operation at a time, that is
  `(0 + ∑ᵢ -(0 + ∑ₖ wterm (x i) (t i) w k)) / 524288` with `wterm` of Algebra.lean.
-/
import proofs.«167388_j83476984365621_2_alg».proof.Proof.RefRead
import proofs.«167388_j83476984365621_2_alg».proof.Proof.Algebra
import proofs.«167388_j83476984365621_2_alg».proof.Proof.Consts
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.SoftCE
open Idealize.ShloMosaic Idealize.ShloMosaic.ValueIdx

variable (x t : S524288x256.Idx → EReal) (w : S256.Idx → EReal)

/-- The weighted term of row `i` and class `k` of the reference's arguments. -/
def terms (i : Fin 524288) (k : Fin 256) : EReal :=
  wterm (fun k' => x (ix2 i k')) (fun k' => t (ix2 i k')) (fun k' => w (ix1 k')) k

/-- The row maximum the reference subtracts, at row `i`. -/
theorem row_max (i : Fin 524288) :
    val_main_call0_v2 (F := Ideal) x (ix1 i) = rowMax (fun k => x (ix2 i k)) := by
  rw [val_main_call0_v2_apply, val_main_call0_v1_apply, val_main_call0_cst_0_apply, Ideal.maximumf_def, Ideal.ofBits_def,
    Cert.Consts.ofBits_neg_inf, max_eq_right bot_le]
  unfold val_main_call0_v0
  refine (Host.reduce_eq_fold_single (FloatOps.maximumf (F := Ideal) (φ := .f32)) x (val_main_call0_cst (F := Ideal))
    reducesTo_S524288x256_S524288_d1 (by decide) h_S_ (ix1 i)).trans ?_
  rw [val_main_call0_cst_apply, Ideal.ofBits_def, Cert.Consts.ofBits_neg_inf]
  show (Finset.univ : Finset (Fin 256)).fold max (⊥ : EReal) _ = _
  refine congrArg (fun f => (Finset.univ : Finset (Fin 256)).fold max (⊥ : EReal) f) (funext fun k => ?_)
  exact congrArg x (funext fun a => Fin.ext (by
    match a with
    | ⟨0, _⟩ => rfl
    | ⟨1, _⟩ => rfl))

/-- The shifted logit at `(i, k)`. -/
theorem shifted (i : Fin 524288) (k : Fin 256) :
    val_main_call0_v5 (F := Ideal) x (ix2 i k) = x (ix2 i k) - rowMax (fun k' => x (ix2 i k')) := by
  rw [val_main_call0_v5_apply, val_main_call0_v4_apply, val_main_call0_v3_apply, Ideal.subf_def]
  rw [show idx_main_call0_v3 (idx_main_call0_v4 (ix2 i k)) = ix1 i from funext fun a => Fin.ext (by
    match a with
    | ⟨0, _⟩ => rfl), row_max]

/-- The logarithm of the row's sum of shifted exponentials, at `(i, k)`. -/
theorem log_sum (i : Fin 524288) (k : Fin 256) :
    val_main_call0_v10 (F := Ideal) x (ix2 i k)
      = Ideal.log (∑ k' : Fin 256, Ideal.exp (x (ix2 i k') - rowMax (fun k'' => x (ix2 i k'')))) := by
  rw [val_main_call0_v10_apply, val_main_call0_v9_apply, val_main_call0_v8_apply, Ideal.hostUnary_log_def]
  rw [show idx_main_call0_v8 (idx_main_call0_v10 (ix2 i k)) = ix1 i from funext fun a => Fin.ext (by
    match a with
    | ⟨0, _⟩ => rfl), val_main_call0_v7_apply, val_main_call0_cst_1_apply, Ideal.ofBits_def, Cert.Consts.ofBits_zero,
    zero_add]
  refine congrArg Ideal.log (Finset.sum_congr rfl fun k' _ => ?_)
  rw [val_main_call0_v6_apply, Ideal.hostUnary_exp_def]
  rw [show idx_main_call0_v7 (ix1 i) k' = ix2 i k' from funext fun a => Fin.ext (by
    match a with
    | ⟨0, _⟩ => rfl
    | ⟨1, _⟩ => rfl), shifted]

/-- The product the reference sums, at `(i, k)`: the weighted term. -/
theorem product (i : Fin 524288) (k : Fin 256) :
    val_main_v4 (F := Ideal) x t w (ix2 i k) = terms x t w i k := by
  rw [val_main_v4_apply, val_main_v3_apply, val_main_v2_apply, val_main_v1_apply, val_main_v0_apply, Ideal.mulf_def,
    Ideal.mulf_def, Ideal.subf_def]
  rw [show idx_main_v1 (idx_main_v2 (ix2 i k)) = ix1 k from funext fun a => Fin.ext (by
    match a with
    | ⟨0, _⟩ => rfl), shifted, log_sum]
  rfl

/-- The 524288 rows as indices of the rank-one row array. -/
def rowEquiv : Fin 524288 ≃ S524288.Idx where
  toFun i := ix1 i
  invFun j := j 0
  left_inv _ := rfl
  right_inv j := (eq_ix1 j).symm

/-- THE REFERENCE'S RESULT: the mean of the negated row sums of the weighted terms. -/
theorem result_apply (j : S_.Idx) :
    val_main_v8 (F := Ideal) x t w j
      = Ideal.div (0 + ∑ i : Fin 524288, -(0 + ∑ k : Fin 256, terms x t w i k)) ((524288 : ℝ) : EReal) := by
  rw [val_main_v8_apply, val_main_v7_apply, val_main_cst_0_apply, val_main_cst_1_apply, Ideal.hostDivf_def,
    Ideal.ofBits_def, Ideal.ofBits_def, Cert.Consts.ofBits_zero, Cert.Consts.ofBits_n, ← Equiv.sum_comp rowEquiv]
  refine congrArg (fun s => Ideal.div (0 + s) ((524288 : ℝ) : EReal)) (Finset.sum_congr rfl fun i _ => ?_)
  show val_main_v6 (F := Ideal) x t w (ix1 i) = _
  rw [val_main_v6_apply, val_main_v5_apply, val_main_cst_apply, Ideal.hostNegf_def, Ideal.negf_def, Ideal.ofBits_def,
    Cert.Consts.ofBits_zero]
  refine congrArg (fun s => -(0 + s)) (Finset.sum_congr rfl fun k _ => ?_)
  rw [show idx_main_v5 (ix1 i) k = ix2 i k from funext fun a => Fin.ext (by
    match a with
    | ⟨0, _⟩ => rfl
    | ⟨1, _⟩ => rfl)]
  exact product x t w i k

end Cert.ReferenceIdeal.RefValue

end
-- ==== Proof.Finite.lean ====
/-
  From the precondition to real numbers.

  The precondition says that `|x| < +∞` holds at every entry of the three inputs (three `all`-reductions joined by
  `and`). An extended real whose absolute value is below `+∞` is neither infinity, hence a real number.
-/
import proofs.«167388_j83476984365621_2_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

variable [hF : Cert.Pre_finite_inputs.Facts]

instance : Subsingleton S_.Idx := ⟨fun a b => funext fun d => d.elim0⟩

/-- An extended real whose absolute value compares below the pattern of `+∞` is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot =>
    exfalso
    have hn : ¬(max (⊥ : EReal) (-⊥) < ⊤) := by simp
    have h' : BitVec.ofBool (decide (max (⊥ : EReal) (-⊥) < ⊤)) = 1#1 := h
    rw [decide_eq_false hn] at h'
    exact absurd h' (by decide)
  | top =>
    exfalso
    have hn : ¬(max (⊤ : EReal) (-⊤) < ⊤) := by simp
    have h' : BitVec.ofBool (decide (max (⊤ : EReal) (-⊤) < ⊤)) = 1#1 := h
    rw [decide_eq_false hn] at h'
    exact absurd h' (by decide)
  | coe r => exact ⟨r, rfl⟩

/-- Under the precondition every entry of the logits, of the targets and of the class weights is a real number. -/
theorem real_of_pre (X T : FVec Ideal S524288x256 .f32) (W : FVec Ideal S256 .f32)
    (h : fn (F := Ideal) X T W = fun _ => 1#1) :
    (∀ i, ∃ r : ℝ, X i = (r : EReal)) ∧ (∀ i, ∃ r : ℝ, T i = (r : EReal)) ∧ (∀ i, ∃ r : ℝ, W i = (r : EReal)) := by
  have h0 := congrFun h ValueIdx.ix0
  dsimp only [fn, andi] at h0
  obtain ⟨h12, h3⟩ := IntOp.andi_eq_one.1 h0
  obtain ⟨h1, h2⟩ := IntOp.andi_eq_one.1 h12
  exact ⟨fun i => real_of_abs_lt_top (X i) (Host.reduce_andi_all _ _ _ _ _ h1 i),
    fun i => real_of_abs_lt_top (T i) (Host.reduce_andi_all _ _ _ _ _ h2 i),
    fun i => real_of_abs_lt_top (W i) (Host.reduce_andi_all _ _ _ _ _ h3 i)⟩

end Cert.Finite

end
-- ==== Proof.Bridge.lean ====
/-
  The two results are one number.

  Both programs sum the same weighted terms `wterm (x i) (t i) w k` over all rows and classes: the kernel block by block
  into two accumulators scaled by `1/524288`, the reference row by row and divided by `524288`. The kernel reads the class
  weights through a `[256] → [1, 256]` reshape, which keeps the entries. Under the precondition every entry of the inputs
  is a real number, so every term is, and Algebra.lean's regrouping applies.
-/
import proofs.«167388_j83476984365621_2_alg».proof.Defs
import proofs.«167388_j83476984365621_2_alg».proof.Proof.Gen.Pre_finite_inputs
import proofs.«167388_j83476984365621_2_alg».proof.Proof.KernelResult
import proofs.«167388_j83476984365621_2_alg».proof.Proof.RefValue
import proofs.«167388_j83476984365621_2_alg».proof.Proof.Finite
import Idealize.ShloMosaic.Lib.StableHlo.Run
import Idealize.ShloMosaic.Lib.ValueLayout

noncomputable section

open Idealize.ShloMosaic Idealize.ShloMosaic.TcCoe Idealize.SL.Sem Idealize.ShloMosaic.ValueIdx

namespace Cert.Bridge

open Cert.KernelIdeal Cert.KernelIdeal.Gen Cert.SoftCE

variable (m : (ℓ : Loc nD τ sig) → Buf (Elt Ideal) ℓ)

/-- The row of class weights the call reads is the weights argument reshaped. -/
theorem weights_row (c : Dev nD) :
    (V m c main_v0 : S1x256.Idx → EReal)
      = shapeCast S1x256 (m ((c.tc : Thread nD τ).loc main_arg2) : S256.Idx → EReal) shapeCasts_S256_S1x256 := by
  show StableHlo.after hostOps0 (fun b => m (c, b)) (Proc.devRef .tc main_v0) = _
  after_results
  rfl

/-- The kernel's terms are the reference's terms of the same arguments. -/
theorem terms_eq (c : Dev nD) (i : Fin 524288) (k : Fin 256) :
    Accum.terms m c i k
      = Cert.ReferenceIdeal.RefValue.terms (m ((c.tc : Thread nD τ).loc main_arg0)) (m ((c.tc : Thread nD τ).loc main_arg1))
          (m ((c.tc : Thread nD τ).loc main_arg2)) i k := by
  unfold Accum.terms Cert.ReferenceIdeal.RefValue.terms
  rw [V_main_arg0 m c, V_main_arg1 m c, weights_row m c]
  refine Accum.wterm_congr rfl rfl (funext fun k' => ?_) k
  exact shapeCast_a_1a_apply _ _ (0 : Fin 1) k'

/-- Under the precondition every term is a real number. -/
theorem terms_real (c : Dev nD)
    (hpre : Cert.Pre_finite_inputs.fn (F := Ideal) (m ((c.tc : Thread nD τ).loc main_arg0))
      (m ((c.tc : Thread nD τ).loc main_arg1)) (m ((c.tc : Thread nD τ).loc main_arg2)) = fun _ => 1#1)
    (i : Fin 524288) (k : Fin 256) : ∃ r : ℝ, Accum.terms m c i k = (r : EReal) := by
  obtain ⟨hx, ht, hw⟩ := Cert.Finite.real_of_pre _ _ _ hpre
  choose xr hxr using hx
  choose tr htr using ht
  choose wr hwr using hw
  rw [terms_eq]
  unfold Cert.ReferenceIdeal.RefValue.terms
  rw [show (fun k' => (m ((c.tc : Thread nD τ).loc main_arg0) : S524288x256.Idx → EReal) (ix2 i k'))
      = fun k' => ((xr (ix2 i k') : ℝ) : EReal) from funext fun k' => hxr _,
    show (fun k' => (m ((c.tc : Thread nD τ).loc main_arg1) : S524288x256.Idx → EReal) (ix2 i k'))
      = fun k' => ((tr (ix2 i k') : ℝ) : EReal) from funext fun k' => htr _,
    show (fun k' => (m ((c.tc : Thread nD τ).loc main_arg2) : S256.Idx → EReal) (ix1 k'))
      = fun k' => ((wr (ix1 k') : ℝ) : EReal) from funext fun k' => hwr _]
  exact wterm_real _ _ _ k

/-- THE EQUATION: the kernel's result buffer is the reference's result term of the same arguments. -/
theorem result_eq (c : Dev nD)
    (hpre : Cert.Pre_finite_inputs.fn (F := Ideal) (m ((c.tc : Thread nD τ).loc main_arg0))
      (m ((c.tc : Thread nD τ).loc main_arg1)) (m ((c.tc : Thread nD τ).loc main_arg2)) = fun _ => 1#1) :
    Result.result m c
      = Cert.ReferenceIdeal.Read.val_main_v8 (F := Ideal) (m ((c.tc : Thread nD τ).loc main_arg0))
          (m ((c.tc : Thread nD τ).loc main_arg1)) (m ((c.tc : Thread nD τ).loc main_arg2)) := by
  funext j
  rw [Result.result_apply, Cert.ReferenceIdeal.RefValue.result_apply, total_eq (Accum.terms m c) (terms_real m c hpre)]
  refine congrArg (fun s => Ideal.div (0 + s) ((524288 : ℝ) : EReal)) (Finset.sum_congr rfl fun i _ => ?_)
  exact congrArg (fun s => -(0 + s)) (Finset.sum_congr rfl fun k _ => terms_eq m c i k)

end Cert.Bridge

end
-- ==== Proof.lean ====
/-
  The certificate of the weighted soft cross-entropy mean.

  The kernel walks the 524288 rows in 128 blocks of 4096, two runs of 64 blocks; per block it forms the rows'
  log-probabilities (maximum subtracted, exponentials summed, logarithm subtracted), weights them by target and class
  weight, sums the block, and subtracts the sum from a one-cell accumulator that restarts with each run; the last block
  of a run writes the accumulator times `1/524288` into the run's entry of a two-entry array, which the host then sums.
  The reference does the same row by row and divides the total by 524288. Over finite inputs all the terms are real
  numbers, `1/524288` is an exact power of two, and the two groupings of one finite sum agree (Proof/Algebra.lean);
  Proof/Bridge.lean joins the two programs' values. The three frames are the programs' runs with the result dropped, and
  the ideal pass rewrote nothing, so `preserves` is trivial.
-/
import proofs.«167388_j83476984365621_2_alg».proof.Defs
import proofs.«167388_j83476984365621_2_alg».proof.Proof.Gen.Kernel
import proofs.«167388_j83476984365621_2_alg».proof.Proof.Gen.Kernel.Frame
import proofs.«167388_j83476984365621_2_alg».proof.Proof.Gen.KernelIdeal
import proofs.«167388_j83476984365621_2_alg».proof.Proof.Gen.KernelIdeal.Frame
import proofs.«167388_j83476984365621_2_alg».proof.Proof.Gen.ReferenceIdeal
import proofs.«167388_j83476984365621_2_alg».proof.Proof.Gen.Pre_finite_inputs
import proofs.«167388_j83476984365621_2_alg».proof.Proof.RefRun
import proofs.«167388_j83476984365621_2_alg».proof.Proof.RefRead
import proofs.«167388_j83476984365621_2_alg».proof.Proof.KernelResult
import proofs.«167388_j83476984365621_2_alg».proof.Proof.Bridge

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same extended real in their result buffers. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2]
  exact (Cert.Bridge.result_eq m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
